-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x768 : Shape := ⟨3, ![8, 128, 768]⟩
abbrev S1536x384 : Shape := ⟨2, ![1536, 384]⟩
abbrev S384 : Shape := ⟨1, ![384]⟩
abbrev S384x100 : Shape := ⟨2, ![384, 100]⟩
abbrev S100 : Shape := ⟨1, ![100]⟩
abbrev S_ : Shape := ⟨0, ![]⟩

class Facts : Prop where
  bcast_S_S8x128x768 : S_.BroadcastsInDim S8x128x768 (![] : Fin 0 → Fin S8x128x768.rank)
  reducesTo_S8x128x768_S_d0_1_2 : S8x128x768.ReducesTo [0, 1, 2] S_
  h_S_ : 0 < S_.numel
  bcast_S_S1536x384 : S_.BroadcastsInDim S1536x384 (![] : Fin 0 → Fin S1536x384.rank)
  reducesTo_S1536x384_S_d0_1 : S1536x384.ReducesTo [0, 1] S_
  bcast_S_S384 : S_.BroadcastsInDim S384 (![] : Fin 0 → Fin S384.rank)
  reducesTo_S384_S_d0 : S384.ReducesTo [0] S_
  bcast_S_S384x100 : S_.BroadcastsInDim S384x100 (![] : Fin 0 → Fin S384x100.rank)
  reducesTo_S384x100_S_d0_1 : S384x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg4 : FVec F S100 .f32) (main_v13 : IVec S_ 1) (main_v16 : IVec S384x100 1) : IVec S_ 1 :=
  let main_c_5 : IVec S_ 1 := constantI S_ 1 1#1
  let main_v17 : IVec S_ 1 := (fun x v => Host.reduce IntOp.andi x v reducesTo_S384x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  main_v23

def fn {F : FTy → Type} [FloatOps F] (main_arg0 : FVec F S8x128x768 .f32) (main_arg1 : FVec F S1536x384 .f32) (main_arg2 : FVec F S384 .f32) (main_arg3 : FVec F S384x100 .f32) (main_arg4 : FVec F S100 .f32) : IVec S_ 1 :=
  let main_v0 : FVec F S8x128x768 .f32 := Host.absf main_arg0
  let main_cst : FVec F S_ .f32 := constant S_ .f32 0x7F800000#32
  let main_v1 : FVec F S8x128x768 .f32 := broadcastInDim S8x128x768 ![] bcast_S_S8x128x768 main_cst
  let main_v2 : IVec S8x128x768 1 := cmpf .olt main_v0 main_v1
  let main_c : IVec S_ 1 := constantI S_ 1 1#1
  let main_v3 : IVec S_ 1 := (fun x v => Host.reduce IntOp.andi x v reducesTo_S8x128x768_S_d0_1_2 h_S_) main_v2 main_c
  let main_v4 : FVec F S1536x384 .f32 := Host.absf main_arg1
  let main_cst_0 : FVec F S_ .f32 := constant S_ .f32 0x7F800000#32
  let main_v5 : FVec F S1536x384 .f32 := broadcastInDim S1536x384 ![] bcast_S_S1536x384 main_cst_0
  let main_v6 : IVec S1536x384 1 := cmpf .olt main_v4 main_v5
  let main_c_1 : IVec S_ 1 := constantI S_ 1 1#1
  let main_v7 : IVec S_ 1 := (fun x v => Host.reduce IntOp.andi x v reducesTo_S1536x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x100 .f32 := Host.absf main_arg3
  let main_cst_4 : FVec F S_ .f32 := constant S_ .f32 0x7F800000#32
  let main_v15 : FVec F S384x100 .f32 := broadcastInDim S384x100 ![] bcast_S_S384x100 main_cst_4
  let main_v16 : IVec S384x100 1 := cmpf .olt main_v14 main_v15
  fn_part1 (F := F) main_arg4 main_v13 main_v16
-- ==== Kernel.lean ====
abbrev S8x128x768 : Shape := ⟨3, ![8, 128, 768]⟩
abbrev S1536x384 : Shape := ⟨2, ![1536, 384]⟩
abbrev S384 : Shape := ⟨1, ![384]⟩
abbrev S384x100 : Shape := ⟨2, ![384, 100]⟩
abbrev S100 : Shape := ⟨1, ![100]⟩
abbrev S768x384 : Shape := ⟨2, ![768, 384]⟩
abbrev S8x128x384 : Shape := ⟨3, ![8, 128, 384]⟩
abbrev S1x128x768 : Shape := ⟨3, ![1, 128, 768]⟩
abbrev S1x128x384 : Shape := ⟨3, ![1, 128, 384]⟩
abbrev S128x768 : Shape := ⟨2, ![128, 768]⟩
abbrev S128x384 : Shape := ⟨2, ![128, 384]⟩
abbrev S1x384 : Shape := ⟨2, ![1, 384]⟩
abbrev S8x128x128x100 : Shape := ⟨4, ![8, 128, 128, 100]⟩
abbrev S1x64x384 : Shape := ⟨3, ![1, 64, 384]⟩
abbrev S1x64x128x100 : Shape := ⟨4, ![1, 64, 128, 100]⟩
abbrev S64x384 : Shape := ⟨2, ![64, 384]⟩
abbrev S64x1x384 : Shape := ⟨3, ![64, 1, 384]⟩
abbrev S64x128x384 : Shape := ⟨3, ![64, 128, 384]⟩
abbrev S8192x384 : Shape := ⟨2, ![8192, 384]⟩
abbrev S8192x100 : Shape := ⟨2, ![8192, 100]⟩
abbrev S1x100 : Shape := ⟨2, ![1, 100]⟩
abbrev S64x128x100 : Shape := ⟨3, ![64, 128, 100]⟩

abbrev nBuf : Space → Nat
  | .hbm => 10
  | .vmem => 17
  | .smem => 0
  | _ => 0

abbrev bufTy : (tb : Table) → Fin (tcTables nBuf tb) → BufTy
  | .hbm, ⟨0, _⟩ => ⟨S8x128x768, .f32⟩
  | .hbm, ⟨1, _⟩ => ⟨S1536x384, .f32⟩
  | .hbm, ⟨2, _⟩ => ⟨S384, .f32⟩
  | .hbm, ⟨3, _⟩ => ⟨S384x100, .f32⟩
  | .hbm, ⟨4, _⟩ => ⟨S100, .f32⟩
  | .hbm, ⟨5, _⟩ => ⟨S768x384, .f32⟩
  | .hbm, ⟨6, _⟩ => ⟨S768x384, .f32⟩
  | .hbm, ⟨7, _⟩ => ⟨S8x128x384, .bf16⟩
  | .hbm, ⟨8, _⟩ => ⟨S8x128x384, .bf16⟩
  | .hbm, ⟨9, _⟩ => ⟨S8x128x128x100, .f32⟩
  | .local _ .vmem, ⟨0, _⟩ => ⟨S1x128x768, .f32⟩
  | .local _ .vmem, ⟨1, _⟩ => ⟨S1x128x768, .f32⟩
  | .local _ .vmem, ⟨2, _⟩ => ⟨S768x384, .f32⟩
  | .local _ .vmem, ⟨3, _⟩ => ⟨S768x384, .f32⟩
  | .local _ .vmem, ⟨4, _⟩ => ⟨S384, .f32⟩
  | .local _ .vmem, ⟨5, _⟩ => ⟨S1x128x384, .bf16⟩
  | .local _ .vmem, ⟨6, _⟩ => ⟨S1x128x384, .bf16⟩
  | .local _ .vmem, ⟨7, _⟩ => ⟨S1x128x384, .bf16⟩
  | .local _ .vmem, ⟨8, _⟩ => ⟨S1x128x384, .bf16⟩
  | .local _ .vmem, ⟨9, _⟩ => ⟨S1x128x384, .bf16⟩
  | .local _ .vmem, ⟨10, _⟩ => ⟨S1x128x384, .bf16⟩
  | .local _ .vmem, ⟨11, _⟩ => ⟨S1x64x384, .bf16⟩
  | .local _ .vmem, ⟨12, _⟩ => ⟨S1x64x384, .bf16⟩
  | .local _ .vmem, ⟨13, _⟩ => ⟨S384x100, .f32⟩
  | .local _ .vmem, ⟨14, _⟩ => ⟨S100, .f32⟩
  | .local _ .vmem, ⟨15, _⟩ => ⟨S1x64x128x100, .f32⟩
  | .local _ .vmem, ⟨16, _⟩ => ⟨S1x64x128x100, .f32⟩
  | _, _ => ⟨S8x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x64x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S384x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x128x100 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S1536x384_S768x384_0_0 : S1536x384.Slices ![0, 0] S768x384
  slices_S1536x384_S768x384_768_0 : S1536x384.Slices ![768, 0] S768x384
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  bitsLt_bf16_f32 : FTy.bits .bf16 < FTy.bits .f32
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S384_S384_0 : ∀ a, (![0] : Fin 1 → Nat) a + S384.size a ≤ S384.size a
  h_S384 : 0 < S384.numel
  shapeCasts_S384_S1x384 : S384.ShapeCasts S1x384
  broadcasts_S1x384_S128x384 : S1x384.Broadcasts S128x384
  inb_S1x128x384_S1x128x384_0_0_0 : ∀ a, (![0, 0, 0] : Fin 3 → Nat) a + S1x128x384.size a ≤ S1x128x384.size a
  h_S1x128x384 : 0 < S1x128x384.numel
  shapeCasts_S1x128x384_S128x384 : S1x128x384.ShapeCasts S128x384
  shapeCasts_S128x384_S1x128x384 : S128x384.ShapeCasts S1x128x384
  packedbf16_S1x128x384_S1x128x384_0_0_0 : (Rect.unit (s := S1x128x384) ![0, 0, 0] S1x128x384.size inb_S1x128x384_S1x128x384_0_0_0).PackedRows (EltTy.packing .bf16)
  inb_S1x64x384_S1x64x384_0_0_0 : ∀ a, (![0, 0, 0] : Fin 3 → Nat) a + S1x64x384.size a ≤ S1x64x384.size a
  h_S1x64x384 : 0 < S1x64x384.numel
  shapeCasts_S1x64x384_S64x384 : S1x64x384.ShapeCasts S64x384
  shapeCasts_S64x384_S64x1x384 : S64x384.ShapeCasts S64x1x384
  broadcasts_S64x1x384_S64x128x384 : S64x1x384.Broadcasts S64x128x384
  broadcasts_S1x128x384_S64x128x384 : S1x128x384.Broadcasts S64x128x384
  shapeCasts_S64x128x384_S8192x384 : S64x128x384.ShapeCasts S8192x384
  inb_S384x100_S384x100_0_0 : ∀ a, (![0, 0] : Fin 2 → Nat) a + S384x100.size a ≤ S384x100.size a
  h_S384x100 : 0 < S384x100.numel
  inb_S100_S100_0 : ∀ a, (![0] : Fin 1 → Nat) a + S100.size a ≤ S100.size a
  h_S100 : 0 < S100.numel
  shapeCasts_S100_S1x100 : S100.ShapeCasts S1x100
  broadcasts_S1x100_S8192x100 : S1x100.Broadcasts S8192x100
  shapeCasts_S8192x100_S64x128x100 : S8192x100.ShapeCasts S64x128x100
  inb_S1x64x128x100_S1x64x128x100_0_0_0_0 : ∀ a, (![0, 0, 0, 0] : Fin 4 → Nat) a + S1x64x128x100.size a ≤ S1x64x128x100.size a
  h_S1x64x128x100 : 0 < S1x64x128x100.numel
  shapeCasts_S1x64x128x100_S64x128x100 : S1x64x128x100.ShapeCasts S64x128x100
  shapeCasts_S64x128x100_S1x64x128x100 : S64x128x100.ShapeCasts S1x64x128x100
  dot_S128x768_S768x384_S128x384_1_0_0_1_n_n_wf : DotDims.WF S128x768 S768x384 S128x384 [1] [0] [0] [1] [] []
  dot_S8192x384_S384x100_S8192x100_1_0_0_1_n_n_wf : DotDims.WF S8192x384 S384x100 S8192x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S8x128x768.size a
  hwx0_0 : ∀ i : grid0.Coords, EltTy.bits .f32 = 32 ∨ (Rect.block (s := S8x128x768) S1x128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x384.size a ≤ S768x384.size a
  hwx0_2 : ∀ i : grid0.Coords, EltTy.bits .f32 = 32 ∨ (Rect.block (s := S768x384) S768x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x384.size a ≤ S8x128x384.size a
  hwx0_4 : ∀ i : grid0.Coords, EltTy.bits .bf16 = 32 ∨ (Rect.block (s := S8x128x384) S1x128x384.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x384.size a ≤ S8x128x384.size a
  hwx0_5 : ∀ i : grid0.Coords, EltTy.bits .bf16 = 32 ∨ (Rect.block (s := S8x128x384) S1x128x384.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x384.size a ≤ S8x128x384.size a
  hwx1_0 : ∀ i : grid1.Coords, EltTy.bits .bf16 = 32 ∨ (Rect.block (s := S8x128x384) S1x128x384.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x384.size a ≤ S8x128x384.size a
  hwx1_1 : ∀ i : grid1.Coords, EltTy.bits .bf16 = 32 ∨ (Rect.block (s := S8x128x384) S1x64x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x100.size a ≤ S384x100.size a
  hwx1_2 : ∀ i : grid1.Coords, EltTy.bits .f32 = 32 ∨ (Rect.block (s := S384x100) S384x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100.size a ≤ S100.size a
  hwx1_3 : ∀ i : grid1.Coords, EltTy.bits .f32 = 32 ∨ (Rect.block (s := S100) S100.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x128x100.size a ≤ S8x128x128x100.size a
  hwx1_4 : ∀ i : grid1.Coords, EltTy.bits .f32 = 32 ∨ (Rect.block (s := S8x128x128x100) S1x64x128x100.size (cc1_transform_4 i) (hinb1_4 i)).WholeWords (EltTy.packing .f32)

variable [Facts₀]

def dot_S128x768_S768x384_S128x384_1_0_0_1_n_n : DotDims S128x768 S768x384 S128x384 where
  lhsContracting := [1]
  rhsContracting := [0]
  lhsNonContracting := [0]
  rhsNonContracting := [1]
  lhsBatch := []
  rhsBatch := []
  wf := dot_S128x768_S768x384_S128x384_1_0_0_1_n_n_wf
def dot_S8192x384_S384x100_S8192x100_1_0_0_1_n_n : DotDims S8192x384 S384x100 S8192x100 where
  lhsContracting := [1]
  rhsContracting := [0]
  lhsNonContracting := [0]
  rhsNonContracting := [1]
  lhsBatch := []
  rhsBatch := []
  wf := dot_S8192x384_S384x100_S8192x100_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x128x384.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x128x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S1x128x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x64x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S384x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64x128x100.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x128x768 : Shape := ⟨3, ![8, 128, 768]⟩
abbrev S1536x384 : Shape := ⟨2, ![1536, 384]⟩
abbrev S384 : Shape := ⟨1, ![384]⟩
abbrev S384x100 : Shape := ⟨2, ![384, 100]⟩
abbrev S100 : Shape := ⟨1, ![100]⟩
abbrev S768x384 : Shape := ⟨2, ![768, 384]⟩
abbrev S8x128x384 : Shape := ⟨3, ![8, 128, 384]⟩
abbrev S8x1x128x384 : Shape := ⟨4, ![8, 1, 128, 384]⟩
abbrev S8x128x1x384 : Shape := ⟨4, ![8, 128, 1, 384]⟩
abbrev S8x128x128x384 : Shape := ⟨4, ![8, 128, 128, 384]⟩
abbrev S1x1x1x384 : Shape := ⟨4, ![1, 1, 1, 384]⟩
abbrev S_ : Shape := ⟨0, ![]⟩
abbrev S8x128x128x100 : Shape := ⟨4, ![8, 128, 128, 100]⟩
abbrev S1x1x1x100 : Shape := ⟨4, ![1, 1, 1, 100]⟩

abbrev nBuf : Space → Nat
  | .hbm => 24
  | .vmem => 0
  | .smem => 0
  | _ => 0

abbrev bufTy : (tb : Table) → Fin (tcTables nBuf tb) → BufTy
  | .hbm, ⟨0, _⟩ => ⟨S8x128x768, .f32⟩
  | .hbm, ⟨1, _⟩ => ⟨S1536x384, .f32⟩
  | .hbm, ⟨2, _⟩ => ⟨S384, .f32⟩
  | .hbm, ⟨3, _⟩ => ⟨S384x100, .f32⟩
  | .hbm, ⟨4, _⟩ => ⟨S100, .f32⟩
  | .hbm, ⟨5, _⟩ => ⟨S768x384, .f32⟩
  | .hbm, ⟨6, _⟩ => ⟨S768x384, .f32⟩
  | .hbm, ⟨7, _⟩ => ⟨S8x128x384, .f32⟩
  | .hbm, ⟨8, _⟩ => ⟨S8x128x384, .f32⟩
  | .hbm, ⟨9, _⟩ => ⟨S8x1x128x384, .f32⟩
  | .hbm, ⟨10, _⟩ => ⟨S8x128x1x384, .f32⟩
  | .hbm, ⟨11, _⟩ => ⟨S8x128x128x384, .f32⟩
  | .hbm, ⟨12, _⟩ => ⟨S8x128x128x384, .f32⟩
  | .hbm, ⟨13, _⟩ => ⟨S8x128x128x384, .f32⟩
  | .hbm, ⟨14, _⟩ => ⟨S1x1x1x384, .f32⟩
  | .hbm, ⟨15, _⟩ => ⟨S8x128x128x384, .f32⟩
  | .hbm, ⟨16, _⟩ => ⟨S8x128x128x384, .f32⟩
  | .hbm, ⟨17, _⟩ => ⟨S_, .f32⟩
  | .hbm, ⟨18, _⟩ => ⟨S8x128x128x384, .f32⟩
  | .hbm, ⟨19, _⟩ => ⟨S8x128x128x384, .f32⟩
  | .hbm, ⟨20, _⟩ => ⟨S8x128x128x100, .f32⟩
  | .hbm, ⟨21, _⟩ => ⟨S1x1x1x100, .f32⟩
  | .hbm, ⟨22, _⟩ => ⟨S8x128x128x100, .f32⟩
  | .hbm, ⟨23, _⟩ => ⟨S8x128x128x100, .f32⟩
  | _, _ => ⟨S8x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  slices_S1536x384_S768x384_0_0 : S1536x384.Slices ![0, 0] S768x384
  slices_S1536x384_S768x384_768_0 : S1536x384.Slices ![768, 0] S768x384
  bcast_S8x128x384_S8x1x128x384_0_2_3 : S8x128x384.BroadcastsInDim S8x1x128x384 (![0, 2, 3] : Fin 3 → Fin S8x1x128x384.rank)
  bcast_S8x128x384_S8x128x1x384_0_1_3 : S8x128x384.BroadcastsInDim S8x128x1x384 (![0, 1, 3] : Fin 3 → Fin S8x128x1x384.rank)
  bcast_S8x1x128x384_S8x128x128x384_0_1_2_3 : S8x1x128x384.BroadcastsInDim S8x128x128x384 (![0, 1, 2, 3] : Fin 4 → Fin S8x128x128x384.rank)
  bcast_S8x128x1x384_S8x128x128x384_0_1_2_3 : S8x128x1x384.BroadcastsInDim S8x128x128x384 (![0, 1, 2, 3] : Fin 4 → Fin S8x128x128x384.rank)
  bcast_S384_S1x1x1x384_3 : S384.BroadcastsInDim S1x1x1x384 (![3] : Fin 1 → Fin S1x1x1x384.rank)
  bcast_S1x1x1x384_S8x128x128x384_0_1_2_3 : S1x1x1x384.BroadcastsInDim S8x128x128x384 (![0, 1, 2, 3] : Fin 4 → Fin S8x128x128x384.rank)
  bcast_S_S8x128x128x384 : S_.BroadcastsInDim S8x128x128x384 (![] : Fin 0 → Fin S8x128x128x384.rank)
  bcast_S100_S1x1x1x100_3 : S100.BroadcastsInDim S1x1x1x100 (![3] : Fin 1 → Fin S1x1x1x100.rank)
  bcast_S1x1x1x100_S8x128x128x100_0_1_2_3 : S1x1x1x100.BroadcastsInDim S8x128x128x100 (![0, 1, 2, 3] : Fin 4 → Fin S8x128x128x100.rank)
  dot_S8x128x768_S768x384_S8x128x384_2_0_01_1_n_n_wf : DotDims.WF S8x128x768 S768x384 S8x128x384 [2] [0] [0, 1] [1] [] []
  dot_S8x128x128x384_S384x100_S8x128x128x100_3_0_012_1_n_n_wf : DotDims.WF S8x128x128x384 S384x100 S8x128x128x100 [3] [0] [0, 1, 2] [1] [] []

variable [Facts₀]

def dot_S8x128x768_S768x384_S8x128x384_2_0_01_1_n_n : DotDims S8x128x768 S768x384 S8x128x384 where
  lhsContracting := [2]
  rhsContracting := [0]
  lhsNonContracting := [0, 1]
  rhsNonContracting := [1]
  lhsBatch := []
  rhsBatch := []
  wf := dot_S8x128x768_S768x384_S8x128x384_2_0_01_1_n_n_wf
def dot_S8x128x128x384_S384x100_S8x128x128x100_3_0_012_1_n_n : DotDims S8x128x128x384 S384x100 S8x128x128x100 where
  lhsContracting := [3]
  rhsContracting := [0]
  lhsNonContracting := [0, 1, 2]
  rhsNonContracting := [1]
  lhsBatch := []
  rhsBatch := []
  wf := dot_S8x128x128x384_S384x100_S8x128x128x100_3_0_012_1_n_n_wf

class Facts : Prop extends Facts₀ where

variable [Facts]
-- ==== Proof.TableRun.lean ====
/-
  The idealized kernel's run, with the contents of every buffer at the return named.

  The program is three segments: a stretch of two host slices (the upper and the lower half of the stacked
  first-layer weight), the region that computes the two halves per word, and the region that builds the table from
  them. Running the segments in order folds the buffer contents from the launch memory: after the slices `W1`, after
  the first region `W2` (its two output arrays at what its write-backs leave, every other buffer as before), after the
  second `W3`. Every weakly fair execution ends with each unscoped buffer at `W3`; in particular the result buffer
  holds what the second region's write-backs leave of its output window, and the argument arrays hold what they were
  launched with (no slice and no region writes one).
-/
import proofs.«120431_j60971355734708_2_alg».proof.Proof.Gen.KernelIdeal.Frame

set_option maxRecDepth 16384

noncomputable section

namespace Cert.KernelIdeal.TableRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates, nothing faulting, with every unscoped buffer of every core
    at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same run with the result buffer and the five argument arrays read out: the result holds what the table
    region's write-backs leave of its output window, the arguments what they were launched with. -/
theorem run_result : θ_run defs (onTc (τ := τ) (main (F := F))) ⟨m, fun _ => 0, ρ⟩ (fun r => ∀ c : Dev nD,
      r.2.mem ((c.tc : Thread nD τ).loc main_v3) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v3 (by decide))).trans (W3_arr m ρ c 4),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)
    (run_all m ρ)

end Cert.KernelIdeal.TableRun

end
-- ==== Proof.HalvesBody.lean ====
/-
  What the first region's body stores, read at an index, over the extended reals.

  At a grid point the body holds one batch's words `x` as a [1, 128, 768] block, the two halves `U`, `L` of the stacked
  weight as [768, 384] arrays and the bias `β` as a [384] vector. It stores two [1, 128, 384] blocks:

      first  (·, n, d)  =  ∑ h, x (0, n, h) · U (h, d)
      second (·, n, d)  =  (∑ h, x (0, n, h) · L (h, d)) + β d.

  A change of float format is the identity here, a matrix product into a zero accumulator is the plain sum over the
  contracted axis, and the casts between [128, ·] and [1, 128, ·] only add or drop the unit axis.
-/
import proofs.«120431_j60971355734708_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HalvesBody

open Cert.KernelIdeal Cert.KernelIdeal.Gen Idealize.ShloMosaic Idealize.ShloMosaic.ValueIdx

/-- The product of a [128, 768] block of words with a [768, 384] half of the weight: rows by the contracted axis,
    the contracted axis by columns. -/
abbrev wordsTimesHalf := dot_S128x768_S768x384_S128x384_1_0_0_1_n_n

/-! ## The product's operand indices -/

theorem lhs_row (i : S128x384.Idx) (q : wordsTimesHalf.contr.Idx) : (wordsTimesHalf.lhsIdx i q 0).val = (i 0).val := by
  unfold DotDims.lhsIdx
  rw [dif_neg (show ¬(0 : Fin S128x768.rank) ∈ wordsTimesHalf.lhsBatch by decide),
    dif_pos (show (0 : Fin S128x768.rank) ∈ wordsTimesHalf.lhsNonContracting by decide)]
  rfl

theorem lhs_contr (i : S128x384.Idx) (q : wordsTimesHalf.contr.Idx) :
    (wordsTimesHalf.lhsIdx i q 1).val = (q ⟨0, by decide⟩).val :=
  wordsTimesHalf.lhsIdx_val_of_single rfl i q

theorem rhs_contr (i : S128x384.Idx) (q : wordsTimesHalf.contr.Idx) :
    (wordsTimesHalf.rhsIdx i q 0).val = (q ⟨0, by decide⟩).val :=
  wordsTimesHalf.rhsIdx_val_of_single rfl i q

theorem rhs_col (i : S128x384.Idx) (q : wordsTimesHalf.contr.Idx) : (wordsTimesHalf.rhsIdx i q 1).val = (i 1).val := by
  unfold DotDims.rhsIdx
  rw [dif_neg (show ¬(1 : Fin S768x384.rank) ∈ wordsTimesHalf.rhsBatch by decide),
    dif_pos (show (1 : Fin S768x384.rank) ∈ wordsTimesHalf.rhsNonContracting by decide)]
  rfl

/-- The product into a zero accumulator, at row `n` and column `d`, is the sum over the 768 features. -/
theorem product_apply (l : FVec Ideal S128x768 .bf16) (r : FVec Ideal S768x384 .bf16) (n : Fin 128) (d : Fin 384) :
    matmul wordsTimesHalf none l r (constant (F := Ideal) S128x384 .f32 0x00000000#32) (ix2 n d)
      = ∑ h : Fin 768, l (ix2 n h) * r (ix2 h d) := by
  simp only [matmul]
  rw [Ideal.matmul_constant_zero_apply, ← Equiv.sum_comp (contrEquiv1 wordsTimesHalf 768 rfl rfl).symm]
  refine Finset.sum_congr rfl fun k _ => ?_
  have hk := contrEquiv1_symm_val wordsTimesHalf 768 rfl rfl k
  have el : wordsTimesHalf.lhsIdx (ix2 n d) ((contrEquiv1 wordsTimesHalf 768 rfl rfl).symm k) = ix2 n k :=
    funext fun a => Fin.ext (by
      match a with
      | ⟨0, _⟩ => exact lhs_row _ _
      | ⟨1, _⟩ => exact (lhs_contr _ _).trans hk)
  have er : wordsTimesHalf.rhsIdx (ix2 n d) ((contrEquiv1 wordsTimesHalf 768 rfl rfl).symm k) = ix2 k d :=
    funext fun a => Fin.ext (by
      match a with
      | ⟨0, _⟩ => exact (rhs_contr _ _).trans hk
      | ⟨1, _⟩ => exact rhs_col _ _)
  rw [el, er]

/-! ## The stored blocks -/

/-- The words as the products take them: the block with its unit axis dropped. -/
theorem words_apply (v0 : Vec Ideal S1x128x768 .f32) (n : Fin 128) (h : Fin 768) :
    k0_pay1 v0 (ix2 n h) = v0 (ix3 (0 : Fin 1) n h) := by
  unfold k0_pay1
  exact shapeCast_1ab_ab_apply v0 shapeCasts_S1x128x768_S128x768 n h

/-- The first stored block: the words against the upper half. -/
theorem rowBlock_apply (v0 : Vec Ideal S1x128x768 .f32) (v3 : Vec Ideal S768x384 .f32) (u : Fin 1) (n : Fin 128) (d : Fin 384) :
    k0_pay2 v0 v3 (ix3 u n d) = ∑ h : Fin 768, v0 (ix3 (0 : Fin 1) n h) * v3 (ix2 h d) := by
  unfold k0_pay2
  refine (shapeCast_ab_1ab_apply _ shapeCasts_S128x384_S1x128x384 u n d).trans ?_
  refine (product_apply _ _ n d).trans ?_
  refine Finset.sum_congr rfl fun h _ => ?_
  exact congrArg₂ (· * ·) (words_apply v0 n h) (congrFun (shapeCast_self v3 shapeCasts_S768x384_S768x384) (ix2 h d))

/-- The second stored block: the words against the lower half, plus the bias along the rows. -/
theorem colBlock_apply (v0 : Vec Ideal S1x128x768 .f32) (v6 : Vec Ideal S768x384 .f32) (v9 : Vec Ideal S384 .f32)
    (u : Fin 1) (n : Fin 128) (d : Fin 384) :
    k0_pay3 v0 v6 v9 (ix3 u n d) = (∑ h : Fin 768, v0 (ix3 (0 : Fin 1) n h) * v6 (ix2 h d)) + v9 (ix1 d) := by
  unfold k0_pay3
  refine (shapeCast_ab_1ab_apply _ shapeCasts_S128x384_S1x128x384 u n d).trans ?_
  refine (addf_apply _ _ (ix2 n d)).trans ?_
  refine congrArg₂ (· + ·) ?_ ?_
  · refine (product_apply _ _ n d).trans ?_
    refine Finset.sum_congr rfl fun h _ => ?_
    exact congrArg₂ (· * ·) (words_apply v0 n h) (congrFun (shapeCast_self v6 shapeCasts_S768x384_S768x384) (ix2 h d))
  · exact (broadcastTo_1b_ab_apply _ broadcasts_S1x384_S128x384 n d).trans
      (shapeCast_a_1a_apply v9 shapeCasts_S384_S1x384 (0 : Fin 1) d)

end Cert.KernelIdeal.HalvesBody

end
-- ==== Proof.PairTable.lean ====
/-
  The pairwise label table, as one function of the five argument arrays, over the extended reals.

  For a batch `b` and a pair of words `(i, j)` the first layer sees the concatenation of word `j`'s and word `i`'s
  representations; a product with a concatenation splits into the sum of two products, so with `W1`'s upper 768 rows
  acting on word `j` (`rowPart`) and its lower 768 rows on word `i` (`colPart`)

      hidden b i j d  =  max (rowPart b j d + colPart b i d + b1 d) 0
      table  b i j l  =  (∑ d, hidden b i j d · W2 d l) + b2 l.

  The kernel first stores the two halves per word — the row half as it is, the column half with the bias already
  added — and then forms `max ((colPart b i d + b1 d) + rowPart b j d) 0`: the same three summands in another order
  and grouping. Addition on the extended reals is commutative and associative at every value, the infinities
  included, so the two arrangements are equal with no finiteness assumed (`hidden_of_folded_bias`).
-/
import Idealize.ShloMosaic.PureOps.Ideal
import Idealize.ShloMosaic.Lib.ValueIdx

noncomputable section

namespace Cert.PairTable

open Idealize.ShloMosaic Idealize.ShloMosaic.ValueIdx

/-- Row `h` of the upper half of the stacked first-layer weight (the rows that meet word `j`). -/
abbrev upper (h : Fin 768) : Fin 1536 := ⟨h.val, Nat.lt_of_lt_of_le h.isLt (by decide)⟩
/-- Row `h` of its lower half (the rows that meet word `i`). -/
abbrev lower (h : Fin 768) : Fin 1536 := ⟨768 + h.val, by have := h.isLt; omega⟩

/-- The word representations, [batch, word, feature]. -/
abbrev Words := (⟨3, ![8, 128, 768]⟩ : Shape).Idx → EReal
/-- The stacked first-layer weight, [2 · feature, hidden]. -/
abbrev Stacked := (⟨2, ![1536, 384]⟩ : Shape).Idx → EReal
/-- The first-layer bias, [hidden]. -/
abbrev Bias1 := (⟨1, ![384]⟩ : Shape).Idx → EReal
/-- The second-layer weight, [hidden, label]. -/
abbrev Weight2 := (⟨2, ![384, 100]⟩ : Shape).Idx → EReal
/-- The second-layer bias, [label]. -/
abbrev Bias2 := (⟨1, ![100]⟩ : Shape).Idx → EReal

/-- Word `n` of batch `b` against the upper half of the stacked weight: `∑ h, x[b,n,h] · W1[h,d]`. -/
def rowPart (x : Words) (w1 : Stacked) (b : Fin 8) (n : Fin 128) (d : Fin 384) : EReal :=
  ∑ h : Fin 768, x (ix3 b n h) * w1 (ix2 (upper h) d)

/-- Word `n` of batch `b` against the lower half: `∑ h, x[b,n,h] · W1[768 + h,d]`. -/
def colPart (x : Words) (w1 : Stacked) (b : Fin 8) (n : Fin 128) (d : Fin 384) : EReal :=
  ∑ h : Fin 768, x (ix3 b n h) * w1 (ix2 (lower h) d)

/-- The row halves of every word, as an array [batch, word, hidden]. -/
def rowArr (x : Words) (w1 : Stacked) : (⟨3, ![8, 128, 384]⟩ : Shape).Idx → EReal :=
  fun j => rowPart x w1 (j 0) (j 1) (j 2)

/-- The column halves of every word with the first-layer bias added, as an array [batch, word, hidden]. -/
def colBiasArr (x : Words) (w1 : Stacked) (b1 : Bias1) : (⟨3, ![8, 128, 384]⟩ : Shape).Idx → EReal :=
  fun j => colPart x w1 (j 0) (j 1) (j 2) + b1 (ix1 (j 2))

/-- Hidden unit `d` of the pair `(i, j)` of batch `b`: the rectified sum of word `j`'s row half, word `i`'s column
    half and the bias. -/
def hidden (x : Words) (w1 : Stacked) (b1 : Bias1) (b : Fin 8) (i j : Fin 128) (d : Fin 384) : EReal :=
  max (rowPart x w1 b j d + colPart x w1 b i d + b1 (ix1 d)) 0

/-- The table [batch, word i, word j, label]: the second layer over the hidden units of each pair. -/
def table (x : Words) (w1 : Stacked) (b1 : Bias1) (w2 : Weight2) (b2 : Bias2) :
    (⟨4, ![8, 128, 128, 100]⟩ : Shape).Idx → EReal :=
  fun o => (∑ d : Fin 384, hidden x w1 b1 (o 0) (o 1) (o 2) d * w2 (ix2 d (o 3))) + b2 (ix1 (o 3))

/-- The bias folded into the column half first, and the row half added last, is the same hidden unit:
    `(c + β) + r = (r + c) + β` by commutativity and associativity of `+`, which hold on all of the extended reals. -/
theorem hidden_of_folded_bias (x : Words) (w1 : Stacked) (b1 : Bias1) (b : Fin 8) (i j : Fin 128) (d : Fin 384) :
    max (colPart x w1 b i d + b1 (ix1 d) + rowPart x w1 b j d) 0 = hidden x w1 b1 b i j d := by
  unfold hidden
  rw [add_right_comm, add_comm (colPart x w1 b i d)]

end Cert.PairTable

end
-- ==== Proof.HalvesArrays.lean ====
/-
  The two arrays the first region leaves: the row halves of every word, and the column halves with the bias added.

  The region's grid is the eight batches. At batch `t` the words' window holds block `t` of the word array (the batch
  itself), the two weight windows hold the whole upper and lower halves of the stacked weight — which the two host
  slices before the region wrote: row `h` of the upper half is row `h` of the stacked weight, row `h` of the lower half
  is row `768 + h` —, the bias window the whole bias; and each output window writes block `t` of its array back. So what
  batch `t` writes back is block `t` of ONE function of the argument arrays (`rowArr`, `colBiasArr`), and since the eight
  blocks tile the [8, 128, 384] arrays, each array ends holding that function.
-/
import proofs.«120431_j60971355734708_2_alg».proof.Proof.Gen.KernelIdeal.Frame
import proofs.«120431_j60971355734708_2_alg».proof.Proof.HalvesBody
import proofs.«120431_j60971355734708_2_alg».proof.Proof.PairTable
import Idealize.ShloMosaic.Lib.Pipeline.Value
import Idealize.ShloMosaic.Lib.StableHlo.Run
import Idealize.ShloMosaic.Lib.Tactic

set_option maxRecDepth 16384

noncomputable section

namespace Cert.KernelIdeal.HalvesArrays

open Cert.KernelIdeal Cert.KernelIdeal.Gen Cert.PairTable
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The word representations the program is launched with. -/
abbrev words (c : Dev nD) : Words := m ((c : Thread nD τ).loc main_arg0)
/-- The stacked first-layer weight it is launched with. -/
abbrev stacked (c : Dev nD) : Stacked := m ((c : Thread nD τ).loc main_arg1)
/-- The first-layer bias it is launched with. -/
abbrev bias1 (c : Dev nD) : Bias1 := m ((c : Thread nD τ).loc main_arg2)

/-! ## What the region finds in its input arrays -/

/-- The two slices leave the words as launched. -/
theorem entry_words (c : Dev nD) : (V1 m ρ c main_arg0 : S8x128x768.Idx → EReal) = words m c := by
  show StableHlo.after hostOps0 (W0 m ρ c) (Proc.devRef .tc main_arg0) = _
  after_results <;> rfl

/-- and the bias. -/
theorem entry_bias (c : Dev nD) : (V1 m ρ c main_arg2 : S384.Idx → EReal) = bias1 m c := by
  show StableHlo.after hostOps0 (W0 m ρ c) (Proc.devRef .tc main_arg2) = _
  after_results <;> rfl

/-- The first slice's result is the upper 768 rows of the stacked weight. -/
theorem entry_upper (c : Dev nD) : (V1 m ρ c main_v0 : S768x384.Idx → EReal)
    = extractStridedSlice S768x384 ![0, 0] (stacked m c) slices_S1536x384_S768x384_0_0 := by
  show StableHlo.after hostOps0 (W0 m ρ c) (Proc.devRef .tc main_v0) = _
  after_results <;> rfl

/-- The second slice's result is its lower 768 rows. -/
theorem entry_lower (c : Dev nD) : (V1 m ρ c main_v1 : S768x384.Idx → EReal)
    = extractStridedSlice S768x384 ![768, 0] (stacked m c) slices_S1536x384_S768x384_768_0 := by
  show StableHlo.after hostOps0 (W0 m ρ c) (Proc.devRef .tc main_v1) = _
  after_results <;> rfl

/-! ## The windows' blocks at a batch -/

/-- The printed index maps over the grid: the words' and the two outputs' blocks move with the batch, the weight
    halves and the bias are read whole at every batch. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The batch a grid point works on. -/
abbrev batchOf (t : Fin cfg0.N) : Fin 8 := ⟨t.val, by have h := t.isLt; have hN : cfg0.N = 8 := N_0; omega⟩

/-- The words' block at batch `t` is that batch of the launched words. -/
theorem words_block (c : Dev nD) (t : Fin cfg0.N) (n : Fin 128) (h : Fin 768) :
    (iblk0 (V1 m ρ) c 0 t : Vec Ideal S1x128x768 .f32) (ix3 (0 : Fin 1) n h) = words m c (ix3 (batchOf t) n h) := by
  obtain ⟨e0, e1, e2, -⟩ := block_indices t
  unfold iblk0
  rw [View.read_apply]
  show (V1 m ρ c main_arg0 : S8x128x768.Idx → EReal) _ = _
  rw [entry_words]
  congr 1
  funext a
  apply Fin.ext
  match a with
  | ⟨0, _⟩ => show win0_0.index t (0 : Fin 3) * 1 + 1 * 0 = t.val; rw [e0]; omega
  | ⟨1, _⟩ => show win0_0.index t (1 : Fin 3) * 128 + 1 * n.val = n.val; rw [e1]; omega
  | ⟨2, _⟩ => show win0_0.index t (2 : Fin 3) * 768 + 1 * h.val = h.val; rw [e2]; omega

/-- The upper-half window's block, at every batch, is the upper 768 rows of the launched stacked weight. -/
theorem upper_block (c : Dev nD) (t : Fin cfg0.N) (h : Fin 768) (d : Fin 384) :
    (iblk0 (V1 m ρ) c 1 t : Vec Ideal S768x384 .f32) (ix2 h d) = stacked m c (ix2 (upper h) d) := by
  obtain ⟨-, -, -, e0, e1, -⟩ := block_indices t
  unfold iblk0
  rw [View.read_apply]
  show (V1 m ρ c main_v0 : S768x384.Idx → EReal) _ = _
  rw [entry_upper]
  refine extractStridedSlice_apply ![0, 0] _ slices_S1536x384_S768x384_0_0 _ (ix2 (upper h) d) fun a => ?_
  match a with
  | ⟨0, _⟩ => show h.val = 0 + (win0_1.index t (0 : Fin 2) * 768 + 1 * h.val); rw [e0]; omega
  | ⟨1, _⟩ => show d.val = 0 + (win0_1.index t (1 : Fin 2) * 384 + 1 * d.val); rw [e1]; omega

/-- The lower-half window's block, at every batch, is the lower 768 rows. -/
theorem lower_block (c : Dev nD) (t : Fin cfg0.N) (h : Fin 768) (d : Fin 384) :
    (iblk0 (V1 m ρ) c 2 t : Vec Ideal S768x384 .f32) (ix2 h d) = stacked m c (ix2 (lower h) d) := by
  obtain ⟨-, -, -, -, -, e0, e1, -⟩ := block_indices t
  unfold iblk0
  rw [View.read_apply]
  show (V1 m ρ c main_v1 : S768x384.Idx → EReal) _ = _
  rw [entry_lower]
  refine extractStridedSlice_apply ![768, 0] _ slices_S1536x384_S768x384_768_0 _ (ix2 (lower h) d) fun a => ?_
  match a with
  | ⟨0, _⟩ => show 768 + h.val = 768 + (win0_2.index t (0 : Fin 2) * 768 + 1 * h.val); rw [e0]; omega
  | ⟨1, _⟩ => show d.val = 0 + (win0_2.index t (1 : Fin 2) * 384 + 1 * d.val); rw [e1]; omega

/-- The bias window's block, at every batch, is the launched bias. -/
theorem bias_block (c : Dev nD) (t : Fin cfg0.N) (d : Fin 384) :
    (iblk0 (V1 m ρ) c 3 t : Vec Ideal S384 .f32) (ix1 d) = bias1 m c (ix1 d) := by
  obtain ⟨-, -, -, -, -, -, -, e0, -⟩ := block_indices t
  unfold iblk0
  rw [View.read_apply]
  show (V1 m ρ c main_arg2 : S384.Idx → EReal) _ = _
  rw [entry_bias]
  congr 1
  funext a
  apply Fin.ext
  match a with
  | ⟨0, _⟩ => show win0_3.index t (0 : Fin 1) * 384 + 1 * d.val = d.val; rw [e0]; omega

/-! ## What a batch writes back -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Where an element of an output block sits in its array: in the batch's own slab, at the same word and unit. -/
theorem row_emb (t : Fin cfg0.N) (u : Fin 1) (n : Fin 128) (d : Fin 384) :
    ((cfg0.win 4).blk t).view.emb (ix3 u n d) = (ix3 (batchOf t) n d : S8x128x384.Idx) := by
  obtain ⟨-, -, -, -, -, -, -, -, e0, e1, e2, -⟩ := block_indices t
  funext a
  apply Fin.ext
  have hu : u.val = 0 := by omega
  match a with
  | ⟨0, _⟩ => show win0_4.index t (0 : Fin 3) * 1 + 1 * u.val = t.val; rw [e0]; omega
  | ⟨1, _⟩ => show win0_4.index t (1 : Fin 3) * 128 + 1 * n.val = n.val; rw [e1]; omega
  | ⟨2, _⟩ => show win0_4.index t (2 : Fin 3) * 384 + 1 * d.val = d.val; rw [e2]; omega

theorem col_emb (t : Fin cfg0.N) (u : Fin 1) (n : Fin 128) (d : Fin 384) :
    ((cfg0.win 5).blk t).view.emb (ix3 u n d) = (ix3 (batchOf t) n d : S8x128x384.Idx) := by
  obtain ⟨-, -, -, -, -, -, -, -, -, -, -, e0, e1, e2⟩ := block_indices t
  funext a
  apply Fin.ext
  have hu : u.val = 0 := by omega
  match a with
  | ⟨0, _⟩ => show win0_5.index t (0 : Fin 3) * 1 + 1 * u.val = t.val; rw [e0]; omega
  | ⟨1, _⟩ => show win0_5.index t (1 : Fin 3) * 128 + 1 * n.val = n.val; rw [e1]; omega
  | ⟨2, _⟩ => show win0_5.index t (2 : Fin 3) * 384 + 1 * d.val = d.val; rw [e2]; omega

/-- Batch `t` writes back, through the first output window, block `t` of the row halves. -/
theorem flushed_row (c : Dev nD) (t : Fin cfg0.N) :
    (dat0 (V1 m ρ) c).flushed 4 t = ((cfg0.win 4).blk t).view.read (Elt Ideal) (rowArr (words m c) (stacked m c)) := by
  show (cfg0.win 4).cut (grid0.coords t) ((dat0 (V1 m ρ) c).after 4 t) = _
  rw [after0_4]
  unfold out0_4
  rw [View.canon_unit_zero hz3]
  simp only [View.ld_unit_zero (S := S1x128x768) hz3, View.ld_unit_zero (S := S768x384) hz2]
  funext y
  obtain ⟨u, n, d, rfl⟩ : ∃ (u : Fin 1) (n : Fin 128) (d : Fin 384), y = ix3 u n d := ⟨y 0, y 1, y 2, eq_ix3 y⟩
  show k0_pay2 (iblk0 (V1 m ρ) c 0 t) (iblk0 (V1 m ρ) c 1 t) (ix3 u n d)
    = rowArr (words m c) (stacked m c) (((cfg0.win 4).blk t).view.emb (ix3 u n d))
  rw [row_emb]
  refine (HalvesBody.rowBlock_apply (iblk0 (V1 m ρ) c 0 t) (iblk0 (V1 m ρ) c 1 t) u n d).trans ?_
  show _ = rowPart (words m c) (stacked m c) (batchOf t) n d
  unfold rowPart
  exact Finset.sum_congr rfl fun h _ => congrArg₂ (· * ·) (words_block m ρ c t n h) (upper_block m ρ c t h d)

/-- and through the second, block `t` of the column halves with the bias added. -/
theorem flushed_col (c : Dev nD) (t : Fin cfg0.N) :
    (dat0 (V1 m ρ) c).flushed 5 t
      = ((cfg0.win 5).blk t).view.read (Elt Ideal) (colBiasArr (words m c) (stacked m c) (bias1 m c)) := by
  show (cfg0.win 5).cut (grid0.coords t) ((dat0 (V1 m ρ) c).after 5 t) = _
  rw [after0_5]
  unfold out0_5
  rw [View.canon_unit_zero hz3]
  simp only [View.ld_unit_zero (S := S1x128x768) hz3, View.ld_unit_zero (S := S768x384) hz2, View.ld_unit_zero (S := S384) hz1]
  funext y
  obtain ⟨u, n, d, rfl⟩ : ∃ (u : Fin 1) (n : Fin 128) (d : Fin 384), y = ix3 u n d := ⟨y 0, y 1, y 2, eq_ix3 y⟩
  show k0_pay3 (iblk0 (V1 m ρ) c 0 t) (iblk0 (V1 m ρ) c 2 t) (iblk0 (V1 m ρ) c 3 t) (ix3 u n d)
    = colBiasArr (words m c) (stacked m c) (bias1 m c) (((cfg0.win 5).blk t).view.emb (ix3 u n d))
  rw [col_emb]
  refine (HalvesBody.colBlock_apply (iblk0 (V1 m ρ) c 0 t) (iblk0 (V1 m ρ) c 2 t) (iblk0 (V1 m ρ) c 3 t) u n d).trans ?_
  show _ = colPart (words m c) (stacked m c) (batchOf t) n d + bias1 m c (ix1 d)
  unfold colPart
  exact congrArg₂ (· + ·)
    (Finset.sum_congr rfl fun h _ => congrArg₂ (· * ·) (words_block m ρ c t n h) (lower_block m ρ c t h d))
    (bias_block m ρ c t d)

/-! ## The eight blocks tile each array -/

theorem mem_row_block (t : Fin cfg0.N) (i : S8x128x384.Idx) :
    i ∈ ((cfg0.win 4).blk t).view.set ↔ ∀ a : Fin 3, win0_4.index t a * S1x128x384.size a ≤ (i a).val
      ∧ (i a).val < win0_4.index t a * S1x128x384.size a + S1x128x384.size a := by
  show i ∈ ((View.whole main_v2_0).slice (win0_4.rect t)).set ↔ _
  rw [View.set_slice_whole, Rect.mem_set_unit]
  exact Iff.rfl

theorem mem_col_block (t : Fin cfg0.N) (i : S8x128x384.Idx) :
    i ∈ ((cfg0.win 5).blk t).view.set ↔ ∀ a : Fin 3, win0_5.index t a * S1x128x384.size a ≤ (i a).val
      ∧ (i a).val < win0_5.index t a * S1x128x384.size a + S1x128x384.size a := by
  show i ∈ ((View.whole main_v2_1).slice (win0_5.rect t)).set ↔ _
  rw [View.set_slice_whole, Rect.mem_set_unit]
  exact Iff.rfl

/-- The grid point of a batch. -/
abbrev pointOf (b : Fin 8) : Fin cfg0.N := ⟨b.val, by have h := b.isLt; have hN : cfg0.N = 8 := N_0; omega⟩

/-- Every index of the row-half array lies in its own batch's block. -/
theorem cover_row (i : S8x128x384.Idx) :
    ∃ t : Fin cfg0.N, (cfg0.win 4).flush t = true ∧ i ∈ ((cfg0.win 4).blk t).view.set := by
  have h0 : (i 0).val < 8 := (i 0).isLt
  have h1 : (i 1).val < 128 := (i 1).isLt
  have h2 : (i 2).val < 384 := (i 2).isLt
  obtain ⟨-, -, -, -, -, -, -, -, e0, e1, e2, -⟩ := block_indices (pointOf ⟨(i 0).val, h0⟩)
  have ht : (pointOf ⟨(i 0).val, h0⟩).val = (i 0).val := rfl
  refine ⟨pointOf ⟨(i 0).val, h0⟩, flush0_4 _, ?_⟩
  rw [mem_row_block]
  intro a
  match a with
  | ⟨0, _⟩ =>
    show win0_4.index (pointOf ⟨(i 0).val, h0⟩) (0 : Fin 3) * 1 ≤ (i 0).val
      ∧ (i 0).val < win0_4.index (pointOf ⟨(i 0).val, h0⟩) (0 : Fin 3) * 1 + 1
    rw [e0, ht]; omega
  | ⟨1, _⟩ =>
    show win0_4.index (pointOf ⟨(i 0).val, h0⟩) (1 : Fin 3) * 128 ≤ (i 1).val
      ∧ (i 1).val < win0_4.index (pointOf ⟨(i 0).val, h0⟩) (1 : Fin 3) * 128 + 128
    rw [e1]; omega
  | ⟨2, _⟩ =>
    show win0_4.index (pointOf ⟨(i 0).val, h0⟩) (2 : Fin 3) * 384 ≤ (i 2).val
      ∧ (i 2).val < win0_4.index (pointOf ⟨(i 0).val, h0⟩) (2 : Fin 3) * 384 + 384
    rw [e2]; omega

/-- and likewise of the column-half array. -/
theorem cover_col (i : S8x128x384.Idx) :
    ∃ t : Fin cfg0.N, (cfg0.win 5).flush t = true ∧ i ∈ ((cfg0.win 5).blk t).view.set := by
  have h0 : (i 0).val < 8 := (i 0).isLt
  have h1 : (i 1).val < 128 := (i 1).isLt
  have h2 : (i 2).val < 384 := (i 2).isLt
  obtain ⟨-, -, -, -, -, -, -, -, -, -, -, e0, e1, e2⟩ := block_indices (pointOf ⟨(i 0).val, h0⟩)
  have ht : (pointOf ⟨(i 0).val, h0⟩).val = (i 0).val := rfl
  refine ⟨pointOf ⟨(i 0).val, h0⟩, flush0_5 _, ?_⟩
  rw [mem_col_block]
  intro a
  match a with
  | ⟨0, _⟩ =>
    show win0_5.index (pointOf ⟨(i 0).val, h0⟩) (0 : Fin 3) * 1 ≤ (i 0).val
      ∧ (i 0).val < win0_5.index (pointOf ⟨(i 0).val, h0⟩) (0 : Fin 3) * 1 + 1
    rw [e0, ht]; omega
  | ⟨1, _⟩ =>
    show win0_5.index (pointOf ⟨(i 0).val, h0⟩) (1 : Fin 3) * 128 ≤ (i 1).val
      ∧ (i 1).val < win0_5.index (pointOf ⟨(i 0).val, h0⟩) (1 : Fin 3) * 128 + 128
    rw [e1]; omega
  | ⟨2, _⟩ =>
    show win0_5.index (pointOf ⟨(i 0).val, h0⟩) (2 : Fin 3) * 384 ≤ (i 2).val
      ∧ (i 2).val < win0_5.index (pointOf ⟨(i 0).val, h0⟩) (2 : Fin 3) * 384 + 384
    rw [e2]; omega

/-! ## The arrays after the region -/

/-- The first output array ends holding the row halves of every word. -/
theorem final_row (c : Dev nD) : (dat0 (V1 m ρ) c).arrAt 4 cfg0.N = rowArr (words m c) (stacked m c) :=
  (dat0 (V1 m ρ) c).arrAt_eq_of_cover 4 (rowArr (words m c) (stacked m c)) (fun t _ => flushed_row m ρ c t) cover_row

/-- The second ends holding the column halves of every word with the bias added. -/
theorem final_col (c : Dev nD) :
    (dat0 (V1 m ρ) c).arrAt 5 cfg0.N = colBiasArr (words m c) (stacked m c) (bias1 m c) :=
  (dat0 (V1 m ρ) c).arrAt_eq_of_cover 5 (colBiasArr (words m c) (stacked m c) (bias1 m c))
    (fun t _ => flushed_col m ρ c t) cover_col

end Cert.KernelIdeal.HalvesArrays

end
-- ==== Proof.LibLayout3.lean ====
/-
  Rank-3 layout operations read at an index given by coordinates.

  A shape cast keeps the row-major position of an element, and a broadcast reads coordinate 0 on each unit
  axis of its operand. The lemmas below spell this out, for indices written by their coordinates, in the cases
  an outer product of two row blocks flattened for a matrix product needs:
  * inserting a unit axis in the middle, `[a, c] → [a, 1, c]`;
  * flattening the two leading axes, `[a, b, c] → [a * b, c]` (row `i * b + k` is the pair `(i, k)`), and back;
  * stretching a unit axis, `[a, 1, c] → [a, b, c]`, `[1, b, c] → [a, b, c]`, `[1, 1, c] → [a, b, c]`.
-/
import Idealize.ShloMosaic.Lib.Pipeline.Value
import Idealize.ShloMosaic.Lib.ValueIdx

namespace Cert.Layout3

open Idealize.ShloMosaic Idealize.ShloMosaic.ValueIdx

variable {α : Type}

/-! ## Shape casts -/

/-- An `[a, c]` array cast to `[a, 1, c]` reads, at `(i, u, j)`, the operand at `(i, j)`: both have row-major
    position `i * c + j`, the unit coordinate `u` being `0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, c]` array cast to `[m, c]` reads, at `(r, j)` with `r = i * b + k`, the operand at `(i, k, j)`: both have
    row-major position `(i * b + k) * c + j`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (j : Fin c) (i : Fin a) (k : Fin b)
    (hr : r.val = i.val * b + k.val) :
    shapeCast ⟨2, ![m, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[m, c]` array cast to `[a, b, c]` reads, at `(i, k, j)`, the operand at `(r, j)` with `r = i * b + k`. -/
theorem shapeCast_mc_abc_apply {a b c m : ℕ} (x : (⟨2, ![m, c]⟩ : Shape).Idx → α)
    (h : (⟨2, ![m, c]⟩ : Shape).ShapeCasts ⟨3, ![a, b, c]⟩) (i : Fin a) (k : Fin b) (j : Fin c) (r : Fin m)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-! ## Broadcasts along unit axes -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Cert.Layout3
-- ==== Proof.TableBody.lean ====
/-
  What the table region's body stores, read at an index, over the extended reals.

  At a grid point the body holds one batch's row halves `P` as a [1, 128, 384] block (all 128 words `j`), a tile of 64
  of its column halves with the bias already added `Q` as a [1, 64, 384] block (words `i` of the tile), the second-layer
  weight `W` [384, 100] and bias `γ` [100]. It forms the outer sum `Q (i, ·) + P (j, ·)` over the 64 × 128 pairs, rectifies
  it against zero, flattens the pairs to 8192 rows (row `i · 128 + j` is the pair `(i, j)`), multiplies by `W`, adds `γ`
  along the rows and unflattens:

      stored (·, i, j, l)  =  (∑ d, max (Q (0, i, d) + P (0, j, d)) 0 · W (d, l)) + γ l.
-/
import proofs.«120431_j60971355734708_2_alg».proof.Proof.Gen.KernelIdeal.Skeleton
import proofs.«120431_j60971355734708_2_alg».proof.Proof.LibLayout3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TableBody

open Cert.KernelIdeal Cert.KernelIdeal.Gen Idealize.ShloMosaic Idealize.ShloMosaic.ValueIdx Cert.Layout3

/-- The product of the 8192 flattened pairs' hidden units with the [384, 100] second-layer weight. -/
abbrev pairsTimesWeight := dot_S8192x384_S384x100_S8192x100_1_0_0_1_n_n

/-! ## The product's operand indices -/

theorem lhs_row (i : S8192x100.Idx) (q : pairsTimesWeight.contr.Idx) : (pairsTimesWeight.lhsIdx i q 0).val = (i 0).val := by
  unfold DotDims.lhsIdx
  rw [dif_neg (show ¬(0 : Fin S8192x384.rank) ∈ pairsTimesWeight.lhsBatch by decide),
    dif_pos (show (0 : Fin S8192x384.rank) ∈ pairsTimesWeight.lhsNonContracting by decide)]
  rfl

theorem lhs_contr (i : S8192x100.Idx) (q : pairsTimesWeight.contr.Idx) :
    (pairsTimesWeight.lhsIdx i q 1).val = (q ⟨0, by decide⟩).val :=
  pairsTimesWeight.lhsIdx_val_of_single rfl i q

theorem rhs_contr (i : S8192x100.Idx) (q : pairsTimesWeight.contr.Idx) :
    (pairsTimesWeight.rhsIdx i q 0).val = (q ⟨0, by decide⟩).val :=
  pairsTimesWeight.rhsIdx_val_of_single rfl i q

theorem rhs_col (i : S8192x100.Idx) (q : pairsTimesWeight.contr.Idx) : (pairsTimesWeight.rhsIdx i q 1).val = (i 1).val := by
  unfold DotDims.rhsIdx
  rw [dif_neg (show ¬(1 : Fin S384x100.rank) ∈ pairsTimesWeight.rhsBatch by decide),
    dif_pos (show (1 : Fin S384x100.rank) ∈ pairsTimesWeight.rhsNonContracting by decide)]
  rfl

/-- The product into a zero accumulator, at pair row `r` and label `l`, is the sum over the 384 hidden units. -/
theorem product_apply (a : FVec Ideal S8192x384 .bf16) (w : FVec Ideal S384x100 .bf16) (r : Fin 8192) (l : Fin 100) :
    matmul pairsTimesWeight none a w (constant (F := Ideal) S8192x100 .f32 0x00000000#32) (ix2 r l)
      = ∑ d : Fin 384, a (ix2 r d) * w (ix2 d l) := by
  simp only [matmul]
  rw [Ideal.matmul_constant_zero_apply, ← Equiv.sum_comp (contrEquiv1 pairsTimesWeight 384 rfl rfl).symm]
  refine Finset.sum_congr rfl fun k _ => ?_
  have hk := contrEquiv1_symm_val pairsTimesWeight 384 rfl rfl k
  have el : pairsTimesWeight.lhsIdx (ix2 r l) ((contrEquiv1 pairsTimesWeight 384 rfl rfl).symm k) = ix2 r k :=
    funext fun a => Fin.ext (by
      match a with
      | ⟨0, _⟩ => exact lhs_row _ _
      | ⟨1, _⟩ => exact (lhs_contr _ _).trans hk)
  have er : pairsTimesWeight.rhsIdx (ix2 r l) ((contrEquiv1 pairsTimesWeight 384 rfl rfl).symm k) = ix2 k l :=
    funext fun a => Fin.ext (by
      match a with
      | ⟨0, _⟩ => exact (rhs_contr _ _).trans hk
      | ⟨1, _⟩ => exact rhs_col _ _)
  rw [el, er]

/-! ## The rectified outer sum -/

/-- The zero the outer sum is rectified against: the all-zero pattern of the narrow float format denotes `0`. -/
theorem narrow_zero : Scalar.ofBits (F := Ideal) .bf16 0x0000#16 = (0 : EReal) := by
  show Ideal.ofBits .bf16 0x0000#16 = 0
  simp [Ideal.ofBits, Ideal.ieee]

/-- The row of the flattened pairs that holds the pair `(i, j)`. -/
abbrev pairRow (i : Fin 64) (j : Fin 128) : Fin 8192 := ⟨i.val * 128 + j.val, by have := i.isLt; have := j.isLt; omega⟩

/-- The stored block at pair `(i, j)` and label `l`. -/
theorem tableBlock_apply (v0 : Vec Ideal S1x128x384 .bf16) (v2 : Vec Ideal S1x64x384 .bf16) (v12 : Vec Ideal S384x100 .f32)
    (v15 : Vec Ideal S100 .f32) (u : Fin 1) (i : Fin 64) (j : Fin 128) (l : Fin 100) :
    k1_pay1 v0 v2 v12 v15 (ix4 u i j l)
      = (∑ d : Fin 384, max (v2 (ix3 (0 : Fin 1) i d) + v0 (ix3 (0 : Fin 1) j d)) 0 * v12 (ix2 d l)) + v15 (ix1 l) := by
  unfold k1_pay1
  refine (shapeCast_abc_1abc_apply _ shapeCasts_S64x128x100_S1x64x128x100 u i j l).trans ?_
  refine (shapeCast_mc_abc_apply _ shapeCasts_S8192x100_S64x128x100 i j l (pairRow i j) rfl).trans ?_
  refine (addf_apply _ _ (ix2 (pairRow i j) l)).trans ?_
  refine congrArg₂ (· + ·) ?_ ?_
  · refine (product_apply _ _ (pairRow i j) l).trans ?_
    refine Finset.sum_congr rfl fun d _ => ?_
    refine congrArg₂ (· * ·) ?_ rfl
    refine (shapeCast_abc_mc_apply _ shapeCasts_S64x128x384_S8192x384 (pairRow i j) d i j rfl).trans ?_
    refine (maximumf_apply _ _ (ix3 i j d)).trans ?_
    refine congrArg₂ max ?_ narrow_zero
    refine (addf_apply _ _ (ix3 i j d)).trans ?_
    refine congrArg₂ (· + ·) ?_ ?_
    · refine (broadcastTo_a1c_abc_apply _ broadcasts_S64x1x384_S64x128x384 i j d).trans ?_
      refine (shapeCast_ac_a1c_apply _ shapeCasts_S64x384_S64x1x384 i (0 : Fin 1) d).trans ?_
      exact shapeCast_1ab_ab_apply v2 shapeCasts_S1x64x384_S64x384 i d
    · refine (broadcastTo_1bc_abc_apply _ broadcasts_S1x128x384_S64x128x384 i j d).trans ?_
      refine (shapeCast_ab_1ab_apply _ shapeCasts_S128x384_S1x128x384 (0 : Fin 1) j d).trans ?_
      exact shapeCast_1ab_ab_apply v0 shapeCasts_S1x128x384_S128x384 j d
  · exact (broadcastTo_1b_ab_apply _ broadcasts_S1x100_S8192x100 (pairRow i j) l).trans
      (shapeCast_a_1a_apply v15 shapeCasts_S100_S1x100 (0 : Fin 1) l)

end Cert.KernelIdeal.TableBody

end
-- ==== Proof.TableArrays.lean ====
/-
  The array the table region leaves: the pairwise label table of the argument arrays.

  The region's grid is 8 batches × 2 tiles of 64 words `i`; point `t` works on batch `t / 2` and tile `t % 2`. Its first
  input array is what the first region left in its first output — the row halves of every word — and the window holds
  the whole batch of it (all 128 words `j`); its second input array is the first region's second output — the column
  halves with the bias added — and the window holds the tile's 64 words `i`; the second-layer weight and bias are read
  whole, as launched (neither the slices nor the first region write them). The output window writes the batch's and
  tile's [1, 64, 128, 100] block back. So what point `t` writes back is block `t` of the one function `table` of the
  argument arrays — the bias met inside the column half is the bias of the hidden unit, by commutativity and
  associativity of the sum —, and the sixteen blocks tile the [8, 128, 128, 100] result.
-/
import proofs.«120431_j60971355734708_2_alg».proof.Proof.HalvesArrays
import proofs.«120431_j60971355734708_2_alg».proof.Proof.TableBody

set_option maxRecDepth 16384

noncomputable section

namespace Cert.KernelIdeal.TableArrays

open Cert.KernelIdeal Cert.KernelIdeal.Gen Cert.PairTable Cert.KernelIdeal.HalvesArrays
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The second-layer weight the program is launched with. -/
abbrev weight2 (c : Dev nD) : Weight2 := m ((c : Thread nD τ).loc main_arg3)
/-- The second-layer bias it is launched with. -/
abbrev bias2 (c : Dev nD) : Bias2 := m ((c : Thread nD τ).loc main_arg4)

/-! ## What the region finds in its input arrays -/

/-- The first region's first output: the row halves. -/
theorem entry_row (c : Dev nD) : (V2 m ρ c main_v2_0 : S8x128x384.Idx → EReal) = rowArr (words m c) (stacked m c) :=
  (hF0 m ρ c 4).symm.trans (final_row m ρ c)

/-- The first region's second output: the column halves with the bias. -/
theorem entry_col (c : Dev nD) :
    (V2 m ρ c main_v2_1 : S8x128x384.Idx → EReal) = colBiasArr (words m c) (stacked m c) (bias1 m c) :=
  (hF0 m ρ c 5).symm.trans (final_col m ρ c)

/-- The second-layer weight is as launched: the first region does not touch it, and neither slice writes it. -/
theorem entry_weight2 (c : Dev nD) : (V2 m ρ c main_arg3 : S384x100.Idx → EReal) = weight2 m c := by
  refine (W2_of_ne m ρ c main_arg3 (by decide)).trans ?_
  show StableHlo.after hostOps0 (W0 m ρ c) (Proc.devRef .tc main_arg3) = _
  after_results <;> rfl

/-- and so is the second-layer bias. -/
theorem entry_bias2 (c : Dev nD) : (V2 m ρ c main_arg4 : S100.Idx → EReal) = bias2 m c := by
  refine (W2_of_ne m ρ c main_arg4 (by decide)).trans ?_
  show StableHlo.after hostOps0 (W0 m ρ c) (Proc.devRef .tc main_arg4) = _
  after_results <;> rfl

/-! ## The windows' blocks at a point -/

/-- The printed index maps over the grid: point `t` is batch `t / 2`, tile `t % 2`. -/
theorem block_indices : ∀ t : Fin cfg1.N,
    win1_0.index t (0 : Fin 3) = t.val / 2 ∧ win1_0.index t (1 : Fin 3) = 0 ∧ win1_0.index t (2 : Fin 3) = 0
    ∧ win1_1.index t (0 : Fin 3) = t.val / 2 ∧ win1_1.index t (1 : Fin 3) = t.val % 2 ∧ win1_1.index t (2 : Fin 3) = 0
    ∧ win1_2.index t (0 : Fin 2) = 0 ∧ win1_2.index t (1 : Fin 2) = 0
    ∧ win1_3.index t (0 : Fin 1) = 0
    ∧ win1_4.index t (0 : Fin 4) = t.val / 2 ∧ win1_4.index t (1 : Fin 4) = t.val % 2
    ∧ win1_4.index t (2 : Fin 4) = 0 ∧ win1_4.index t (3 : Fin 4) = 0 :=
  (by decide +kernel : ∀ t : Fin grid1.N, _)

/-- The batch a grid point works on. -/
abbrev batchAt (t : Fin cfg1.N) : Fin 8 := ⟨t.val / 2, by have h := t.isLt; have hN : cfg1.N = 16 := N_1; omega⟩
/-- The word `i` that row `r` of the point's tile is. -/
abbrev wordAt (t : Fin cfg1.N) (r : Fin 64) : Fin 128 := ⟨t.val % 2 * 64 + r.val, by have h := r.isLt; omega⟩

/-- The row-half window's block at a point is the point's batch of the row halves. -/
theorem row_block (c : Dev nD) (t : Fin cfg1.N) (j : Fin 128) (d : Fin 384) :
    (iblk1 (V2 m ρ) c 0 t : Vec Ideal S1x128x384 .bf16) (ix3 (0 : Fin 1) j d)
      = rowPart (words m c) (stacked m c) (batchAt t) j d := by
  obtain ⟨e0, e1, e2, -⟩ := block_indices t
  unfold iblk1
  rw [View.read_apply]
  show (V2 m ρ c main_v2_0 : S8x128x384.Idx → EReal) _ = _
  rw [entry_row]
  show rowArr (words m c) (stacked m c) _ = rowArr (words m c) (stacked m c) (ix3 (batchAt t) j d)
  congr 1
  funext a
  apply Fin.ext
  match a with
  | ⟨0, _⟩ => show win1_0.index t (0 : Fin 3) * 1 + 1 * 0 = t.val / 2; rw [e0]; omega
  | ⟨1, _⟩ => show win1_0.index t (1 : Fin 3) * 128 + 1 * j.val = j.val; rw [e1]; omega
  | ⟨2, _⟩ => show win1_0.index t (2 : Fin 3) * 384 + 1 * d.val = d.val; rw [e2]; omega

/-- The column-half window's block at a point is the point's tile of its batch's column halves, bias included. -/
theorem col_block (c : Dev nD) (t : Fin cfg1.N) (r : Fin 64) (d : Fin 384) :
    (iblk1 (V2 m ρ) c 1 t : Vec Ideal S1x64x384 .bf16) (ix3 (0 : Fin 1) r d)
      = colPart (words m c) (stacked m c) (batchAt t) (wordAt t r) d + bias1 m c (ix1 d) := by
  obtain ⟨-, -, -, e0, e1, e2, -⟩ := block_indices t
  unfold iblk1
  rw [View.read_apply]
  show (V2 m ρ c main_v2_1 : S8x128x384.Idx → EReal) _ = _
  rw [entry_col]
  show colBiasArr (words m c) (stacked m c) (bias1 m c) _
    = colBiasArr (words m c) (stacked m c) (bias1 m c) (ix3 (batchAt t) (wordAt t r) d)
  congr 1
  funext a
  apply Fin.ext
  match a with
  | ⟨0, _⟩ => show win1_1.index t (0 : Fin 3) * 1 + 1 * 0 = t.val / 2; rw [e0]; omega
  | ⟨1, _⟩ => show win1_1.index t (1 : Fin 3) * 64 + 1 * r.val = t.val % 2 * 64 + r.val; rw [e1]; omega
  | ⟨2, _⟩ => show win1_1.index t (2 : Fin 3) * 384 + 1 * d.val = d.val; rw [e2]; omega

/-- The weight window's block, at every point, is the launched second-layer weight. -/
theorem weight2_block (c : Dev nD) (t : Fin cfg1.N) (d : Fin 384) (l : Fin 100) :
    (iblk1 (V2 m ρ) c 2 t : Vec Ideal S384x100 .f32) (ix2 d l) = weight2 m c (ix2 d l) := by
  obtain ⟨-, -, -, -, -, -, e0, e1, -⟩ := block_indices t
  unfold iblk1
  rw [View.read_apply]
  show (V2 m ρ c main_arg3 : S384x100.Idx → EReal) _ = _
  rw [entry_weight2]
  congr 1
  funext a
  apply Fin.ext
  match a with
  | ⟨0, _⟩ => show win1_2.index t (0 : Fin 2) * 384 + 1 * d.val = d.val; rw [e0]; omega
  | ⟨1, _⟩ => show win1_2.index t (1 : Fin 2) * 100 + 1 * l.val = l.val; rw [e1]; omega

/-- The bias window's block, at every point, is the launched second-layer bias. -/
theorem bias2_block (c : Dev nD) (t : Fin cfg1.N) (l : Fin 100) :
    (iblk1 (V2 m ρ) c 3 t : Vec Ideal S100 .f32) (ix1 l) = bias2 m c (ix1 l) := by
  obtain ⟨-, -, -, -, -, -, -, -, e0, -⟩ := block_indices t
  unfold iblk1
  rw [View.read_apply]
  show (V2 m ρ c main_arg4 : S100.Idx → EReal) _ = _
  rw [entry_bias2]
  congr 1
  funext a
  apply Fin.ext
  match a with
  | ⟨0, _⟩ => show win1_3.index t (0 : Fin 1) * 100 + 1 * l.val = l.val; rw [e0]; omega

/-! ## What a point writes back -/

theorem hz4 : (![0, 0, 0, 0] : Fin 4 → Nat) = fun _ => 0 := funext fun a => by fin_cases a <;> rfl

/-- Where an element of the output block sits in the result: in the point's batch, at the tile's word `i`. -/
theorem table_emb (t : Fin cfg1.N) (u : Fin 1) (r : Fin 64) (j : Fin 128) (l : Fin 100) :
    ((cfg1.win 4).blk t).view.emb (ix4 u r j l) = (ix4 (batchAt t) (wordAt t r) j l : S8x128x128x100.Idx) := by
  obtain ⟨-, -, -, -, -, -, -, -, -, e0, e1, e2, e3⟩ := block_indices t
  funext a
  apply Fin.ext
  have hu : u.val = 0 := by omega
  match a with
  | ⟨0, _⟩ => show win1_4.index t (0 : Fin 4) * 1 + 1 * u.val = t.val / 2; rw [e0]; omega
  | ⟨1, _⟩ => show win1_4.index t (1 : Fin 4) * 64 + 1 * r.val = t.val % 2 * 64 + r.val; rw [e1]; omega
  | ⟨2, _⟩ => show win1_4.index t (2 : Fin 4) * 128 + 1 * j.val = j.val; rw [e2]; omega
  | ⟨3, _⟩ => show win1_4.index t (3 : Fin 4) * 100 + 1 * l.val = l.val; rw [e3]; omega

/-- Point `t` writes back block `t` of the table. -/
theorem flushed_table (c : Dev nD) (t : Fin cfg1.N) :
    (dat1 (V2 m ρ) c).flushed 4 t = ((cfg1.win 4).blk t).view.read (Elt Ideal)
      (table (words m c) (stacked m c) (bias1 m c) (weight2 m c) (bias2 m c)) := by
  show (cfg1.win 4).cut (grid1.coords t) ((dat1 (V2 m ρ) c).after 4 t) = _
  rw [after1_4]
  unfold out1_4
  rw [View.canon_unit_zero hz4]
  simp only [View.ld_unit_zero (S := S1x128x384) hz3, View.ld_unit_zero (S := S1x64x384) hz3,
    View.ld_unit_zero (S := S384x100) hz2, View.ld_unit_zero (S := S100) hz1]
  funext y
  obtain ⟨u, r, j, l, rfl⟩ : ∃ (u : Fin 1) (r : Fin 64) (j : Fin 128) (l : Fin 100), y = ix4 u r j l :=
    ⟨y 0, y 1, y 2, y 3, eq_ix4 y⟩
  show k1_pay1 (iblk1 (V2 m ρ) c 0 t) (iblk1 (V2 m ρ) c 1 t) (iblk1 (V2 m ρ) c 2 t) (iblk1 (V2 m ρ) c 3 t) (ix4 u r j l)
    = table (words m c) (stacked m c) (bias1 m c) (weight2 m c) (bias2 m c) (((cfg1.win 4).blk t).view.emb (ix4 u r j l))
  rw [table_emb]
  refine (TableBody.tableBlock_apply (iblk1 (V2 m ρ) c 0 t) (iblk1 (V2 m ρ) c 1 t) (iblk1 (V2 m ρ) c 2 t)
    (iblk1 (V2 m ρ) c 3 t) u r j l).trans ?_
  show _ = (∑ d : Fin 384, hidden (words m c) (stacked m c) (bias1 m c) (batchAt t) (wordAt t r) j d
      * weight2 m c (ix2 d l)) + bias2 m c (ix1 l)
  refine congrArg₂ (· + ·) (Finset.sum_congr rfl fun d _ => congrArg₂ (· * ·) ?_ (weight2_block m ρ c t d l))
    (bias2_block m ρ c t l)
  exact (congrArg₂ (fun a b : EReal => max (a + b) 0) (col_block m ρ c t r d) (row_block m ρ c t j d)).trans
    (hidden_of_folded_bias (words m c) (stacked m c) (bias1 m c) (batchAt t) (wordAt t r) j d)

/-! ## The sixteen blocks tile the result -/

theorem mem_table_block (t : Fin cfg1.N) (i : S8x128x128x100.Idx) :
    i ∈ ((cfg1.win 4).blk t).view.set ↔ ∀ a : Fin 4, win1_4.index t a * S1x64x128x100.size a ≤ (i a).val
      ∧ (i a).val < win1_4.index t a * S1x64x128x100.size a + S1x64x128x100.size a := by
  show i ∈ ((View.whole main_v3).slice (win1_4.rect t)).set ↔ _
  rw [View.set_slice_whole, Rect.mem_set_unit]
  exact Iff.rfl

/-- The grid point of a batch and a tile. -/
abbrev pointAt (b : Fin 8) (s : Fin 2) : Fin cfg1.N :=
  ⟨b.val * 2 + s.val, by have h := b.isLt; have h' := s.isLt; have hN : cfg1.N = 16 := N_1; omega⟩

/-- Every index of the result lies in the block of its batch and of its word `i`'s tile. -/
theorem cover_table (i : S8x128x128x100.Idx) :
    ∃ t : Fin cfg1.N, (cfg1.win 4).flush t = true ∧ i ∈ ((cfg1.win 4).blk t).view.set := by
  have h0 : (i 0).val < 8 := (i 0).isLt
  have h1 : (i 1).val < 128 := (i 1).isLt
  have h2 : (i 2).val < 128 := (i 2).isLt
  have h3 : (i 3).val < 100 := (i 3).isLt
  have hs : (i 1).val / 64 < 2 := by omega
  obtain ⟨-, -, -, -, -, -, -, -, -, e0, e1, e2, e3⟩ := block_indices (pointAt ⟨(i 0).val, h0⟩ ⟨(i 1).val / 64, hs⟩)
  have ht : (pointAt ⟨(i 0).val, h0⟩ ⟨(i 1).val / 64, hs⟩).val = (i 0).val * 2 + (i 1).val / 64 := rfl
  refine ⟨pointAt ⟨(i 0).val, h0⟩ ⟨(i 1).val / 64, hs⟩, flush1_4 _, ?_⟩
  rw [mem_table_block]
  intro a
  match a with
  | ⟨0, _⟩ =>
    show win1_4.index (pointAt ⟨(i 0).val, h0⟩ ⟨(i 1).val / 64, hs⟩) (0 : Fin 4) * 1 ≤ (i 0).val
      ∧ (i 0).val < win1_4.index (pointAt ⟨(i 0).val, h0⟩ ⟨(i 1).val / 64, hs⟩) (0 : Fin 4) * 1 + 1
    rw [e0, ht]; omega
  | ⟨1, _⟩ =>
    show win1_4.index (pointAt ⟨(i 0).val, h0⟩ ⟨(i 1).val / 64, hs⟩) (1 : Fin 4) * 64 ≤ (i 1).val
      ∧ (i 1).val < win1_4.index (pointAt ⟨(i 0).val, h0⟩ ⟨(i 1).val / 64, hs⟩) (1 : Fin 4) * 64 + 64
    rw [e1, ht]; omega
  | ⟨2, _⟩ =>
    show win1_4.index (pointAt ⟨(i 0).val, h0⟩ ⟨(i 1).val / 64, hs⟩) (2 : Fin 4) * 128 ≤ (i 2).val
      ∧ (i 2).val < win1_4.index (pointAt ⟨(i 0).val, h0⟩ ⟨(i 1).val / 64, hs⟩) (2 : Fin 4) * 128 + 128
    rw [e2]; omega
  | ⟨3, _⟩ =>
    show win1_4.index (pointAt ⟨(i 0).val, h0⟩ ⟨(i 1).val / 64, hs⟩) (3 : Fin 4) * 100 ≤ (i 3).val
      ∧ (i 3).val < win1_4.index (pointAt ⟨(i 0).val, h0⟩ ⟨(i 1).val / 64, hs⟩) (3 : Fin 4) * 100 + 100
    rw [e3]; omega

/-! ## The result after the region -/

/-- The result array ends holding the pairwise label table of the launched arguments. -/
theorem final_table (c : Dev nD) : (dat1 (V2 m ρ) c).arrAt 4 cfg1.N
    = table (words m c) (stacked m c) (bias1 m c) (weight2 m c) (bias2 m c) :=
  (dat1 (V2 m ρ) c).arrAt_eq_of_cover 4 (table (words m c) (stacked m c) (bias1 m c) (weight2 m c) (bias2 m c))
    (fun t _ => flushed_table m ρ c t) cover_table

end Cert.KernelIdeal.TableArrays

end
-- ==== Proof.ReferenceTable.lean ====
/-
  The reference program computes the pairwise label table.

  Read at the extended reals, the reference forms, from the word representations `x`, the stacked first-layer weight
  `W1`, the first-layer bias `b1`, the second-layer weight `W2` and the second-layer bias `b2`:

      p[b,n,d]     = ∑ h, x[b,n,h] · W1[h,d]            (the upper 768 rows of W1)
      q[b,n,d]     = ∑ h, x[b,n,h] · W1[768 + h,d]      (the lower 768 rows of W1)
      s[b,i,j,d]   = (p[b,j,d] + q[b,i,d]) + b1[d]      (p repeated along i, q along j, b1 along b, i and j)
      h[b,i,j,d]   = max s[b,i,j,d] 0
      out[b,i,j,l] = (∑ d, h[b,i,j,d] · W2[d,l]) + b2[l].

  Every step reads its operands at one index (a slice at a shifted row, a repetition at the index with the repeated
  axis dropped, a contraction as the sum over the contracted coordinate), so reading the result at the index
  `(b, i, j, l)` and following the operands back gives the specification's `table` term for term: `p` is `rowPart`,
  `q` is `colPart`, `h` is `hidden` with its three summands in the same order and grouping. No law of arithmetic
  is used beyond the zero word being the number zero.
-/
import proofs.«120431_j60971355734708_2_alg».proof.Proof.Gen.ReferenceIdeal.Read
import proofs.«120431_j60971355734708_2_alg».proof.Proof.PairTable
import Idealize.ShloMosaic.Lib.ValueIdx
import Idealize.ShloMosaic.PureOps.Ideal.Laws

noncomputable section

namespace Cert.PairTable.Reference

open Cert.ReferenceIdeal Cert.ReferenceIdeal.Read Idealize.ShloMosaic Idealize.ShloMosaic.ValueIdx

/-- The product with the upper half of the stacked weight, at `(b, n, d)`, is word `n`'s row half: the slice reads
    row `h` of the weight at row `h` itself. -/
theorem row_product (x0 : (⟨S8x128x768, .f32⟩ : BufTy).Contents (Elt Ideal))
    (x1 : (⟨S1536x384, .f32⟩ : BufTy).Contents (Elt Ideal)) (b : Fin 8) (n : Fin 128) (d : Fin 384) :
    val_main_v2 (F := Ideal) x0 x1 (ix3 b n d) = rowPart x0 x1 b n d := by
  rw [val_main_v2_apply]
  unfold rowPart
  refine Finset.sum_congr rfl fun k _ => ?_
  rw [val_main_v0_apply]
  have el : lidx_main_v2 (ix3 b n d) k = ix3 b n k := funext fun a => Fin.ext (by
    match a with
    | ⟨0, _⟩ => rfl
    | ⟨1, _⟩ => rfl
    | ⟨2, _⟩ => rfl)
  have er : idx_main_v0 (ridx_main_v2 (ix3 b n d) k) = ix2 (upper k) d := funext fun a => Fin.ext (by
    match a with
    | ⟨0, _⟩ => rfl
    | ⟨1, _⟩ => rfl)
  rw [el, er]

/-- The product with the lower half of the stacked weight, at `(b, n, d)`, is word `n`'s column half: the slice reads
    row `h` of its result at row `768 + h` of the weight. -/
theorem col_product (x0 : (⟨S8x128x768, .f32⟩ : BufTy).Contents (Elt Ideal))
    (x1 : (⟨S1536x384, .f32⟩ : BufTy).Contents (Elt Ideal)) (b : Fin 8) (n : Fin 128) (d : Fin 384) :
    val_main_v3 (F := Ideal) x0 x1 (ix3 b n d) = colPart x0 x1 b n d := by
  rw [val_main_v3_apply]
  unfold colPart
  refine Finset.sum_congr rfl fun k _ => ?_
  rw [val_main_v1_apply]
  have el : lidx_main_v3 (ix3 b n d) k = ix3 b n k := funext fun a => Fin.ext (by
    match a with
    | ⟨0, _⟩ => rfl
    | ⟨1, _⟩ => rfl
    | ⟨2, _⟩ => rfl)
  have er : idx_main_v1 (ridx_main_v3 (ix3 b n d) k) = ix2 (lower k) d := funext fun a => Fin.ext (by
    match a with
    | ⟨0, _⟩ => rfl
    | ⟨1, _⟩ => rfl)
  rw [el, er]

/-- The rectified sum at `(b, i, j, d)` is the pair's hidden unit: the row halves are repeated along the axis of `i`
    (so the element read is word `j`'s), the column halves along the axis of `j` (word `i`'s), the bias along all
    three leading axes, and the rectifier's other operand is the zero word everywhere. -/
theorem hidden_unit (x0 : (⟨S8x128x768, .f32⟩ : BufTy).Contents (Elt Ideal))
    (x1 : (⟨S1536x384, .f32⟩ : BufTy).Contents (Elt Ideal)) (x2 : (⟨S384, .f32⟩ : BufTy).Contents (Elt Ideal))
    (b : Fin 8) (i j : Fin 128) (d : Fin 384) :
    val_main_v12 (F := Ideal) x0 x1 x2 (ix4 b i j d) = hidden x0 x1 x2 b i j d := by
  have erow : idx_main_v4 (idx_main_v6 (ix4 b i j d)) = ix3 b j d := funext fun a => Fin.ext (by
    match a with
    | ⟨0, _⟩ => rfl
    | ⟨1, _⟩ => rfl
    | ⟨2, _⟩ => rfl)
  have ecol : idx_main_v5 (idx_main_v7 (ix4 b i j d)) = ix3 b i d := funext fun a => Fin.ext (by
    match a with
    | ⟨0, _⟩ => rfl
    | ⟨1, _⟩ => rfl
    | ⟨2, _⟩ => rfl)
  have ebias : idx_main_v9 (idx_main_v10 (ix4 b i j d)) = ix1 d := funext fun a => Fin.ext (by
    match a with
    | ⟨0, _⟩ => rfl)
  rw [val_main_v12_apply, val_main_v11_apply, val_main_v8_apply, val_main_v6_apply, val_main_v4_apply,
    val_main_v7_apply, val_main_v5_apply, val_main_v10_apply, val_main_v9_apply, val_main_call0_v0_apply,
    val_main_call0_cst_apply, erow, ecol, ebias, row_product, col_product, Ideal.ofBits_def, Ideal.ofBits_zero_f32]
  rfl

/-- The reference's result is the table, index by index: the second contraction runs over the hidden units of the
    pair `(i, j)` of batch `b`, and the second bias is repeated along the three leading axes. -/
theorem reference_is_table
    (x0 : (⟨Cert.ReferenceIdeal.S8x128x768, .f32⟩ : BufTy).Contents (Elt Ideal))
    (x1 : (⟨Cert.ReferenceIdeal.S1536x384, .f32⟩ : BufTy).Contents (Elt Ideal))
    (x2 : (⟨Cert.ReferenceIdeal.S384, .f32⟩ : BufTy).Contents (Elt Ideal))
    (x3 : (⟨Cert.ReferenceIdeal.S384x100, .f32⟩ : BufTy).Contents (Elt Ideal))
    (x4 : (⟨Cert.ReferenceIdeal.S100, .f32⟩ : BufTy).Contents (Elt Ideal)) :
    Cert.ReferenceIdeal.Read.val_main_v16 (F := Ideal) x0 x1 x2 x3 x4 = Cert.PairTable.table x0 x1 x2 x3 x4 := by
  funext o
  obtain ⟨b, i, j, l, rfl⟩ : ∃ (b : Fin 8) (i : Fin 128) (j : Fin 128) (l : Fin 100), o = ix4 b i j l :=
    ⟨o 0, o 1, o 2, o 3, eq_ix4 o⟩
  have ebias : idx_main_v14 (idx_main_v15 (ix4 b i j l)) = ix1 l := funext fun a => Fin.ext (by
    match a with
    | ⟨0, _⟩ => rfl)
  have esum : ∑ k : Fin 384, val_main_v12 (F := Ideal) x0 x1 x2 (lidx_main_v13 (ix4 b i j l) k)
        * x3 (ridx_main_v13 (ix4 b i j l) k)
      = ∑ k : Fin 384, hidden x0 x1 x2 b i j k * x3 (ix2 k l) := by
    refine Finset.sum_congr rfl fun k _ => ?_
    have el : lidx_main_v13 (ix4 b i j l) k = ix4 b i j k := funext fun a => Fin.ext (by
      match a with
      | ⟨0, _⟩ => rfl
      | ⟨1, _⟩ => rfl
      | ⟨2, _⟩ => rfl
      | ⟨3, _⟩ => rfl)
    have er : ridx_main_v13 (ix4 b i j l) k = ix2 k l := funext fun a => Fin.ext (by
      match a with
      | ⟨0, _⟩ => rfl
      | ⟨1, _⟩ => rfl)
    rw [el, er, hidden_unit]
  rw [val_main_v16_apply, val_main_v13_apply, val_main_v15_apply, val_main_v14_apply, ebias, esum]
  rfl

end Cert.PairTable.Reference

end
-- ==== Proof.lean ====
/-
  The pairwise label table: the kernel and its reference compute one function of the five argument arrays.

  For a batch `b`, a pair of words `(i, j)` and a label `l`, with `x` the word representations, `W1` the first-layer
  weight stacked as an upper half (meeting word `j`) over a lower half (meeting word `i`), `b1`, `W2`, `b2` the rest of
  the two-layer head:

      table b i j l  =  (∑ d, max (r b j d + c b i d + b1 d) 0 · W2 d l) + b2 l,
      r b n d = ∑ h, x b n h · W1 h d,        c b n d = ∑ h, x b n h · W1 (768 + h) d.

  THE REFERENCE forms exactly this, operation by operation (`Cert.PairTable.Reference.reference_is_table`, over the
  generated reading of its run).

  THE KERNEL works in two regions. The first, one grid point per batch, stores per word the row half `r` and the
  column half with the bias already added, `c + b1`; the eight blocks tile each array (`HalvesArrays.final_row`,
  `final_col`). The second, one grid point per batch and tile of 64 words `i`, reads those two arrays, forms
  `max ((c b i d + b1 d) + r b j d) 0`, contracts with `W2` and adds `b2`; the sixteen blocks tile the result
  (`TableArrays.final_table`). Its three summands are the reference's in another order and grouping, and addition on
  the extended reals is commutative and associative at every value, so no finiteness of the inputs is used: the
  precondition is never opened. Changes of float format are the identity at the ideal values, and a matrix product
  into a zero accumulator is the plain sum over the contracted axis, on both sides.

  The run itself: the program is two host slices and the two regions in order; every weakly fair execution ends with
  each buffer at the contents folded through those segments (`TableRun.run_result`), the arguments as launched.
  The ideal pass rewrote nothing, so the idealization claim is trivial; the three frame claims are the generated
  frames (the reference's is its generated run with the result dropped).
-/
import proofs.«120431_j60971355734708_2_alg».proof.Defs
import proofs.«120431_j60971355734708_2_alg».proof.Proof.Gen.Kernel
import proofs.«120431_j60971355734708_2_alg».proof.Proof.Gen.Kernel.Skeleton
import proofs.«120431_j60971355734708_2_alg».proof.Proof.Gen.Kernel.Launch
import proofs.«120431_j60971355734708_2_alg».proof.Proof.Gen.Kernel.Points
import proofs.«120431_j60971355734708_2_alg».proof.Proof.Gen.Kernel.Frame
import proofs.«120431_j60971355734708_2_alg».proof.Proof.Gen.KernelIdeal
import proofs.«120431_j60971355734708_2_alg».proof.Proof.Gen.KernelIdeal.Skeleton
import proofs.«120431_j60971355734708_2_alg».proof.Proof.Gen.KernelIdeal.Launch
import proofs.«120431_j60971355734708_2_alg».proof.Proof.Gen.KernelIdeal.Points
import proofs.«120431_j60971355734708_2_alg».proof.Proof.Gen.KernelIdeal.Frame
import proofs.«120431_j60971355734708_2_alg».proof.Proof.Gen.ReferenceIdeal
import proofs.«120431_j60971355734708_2_alg».proof.Proof.Gen.ReferenceIdeal.Run
import proofs.«120431_j60971355734708_2_alg».proof.Proof.Gen.ReferenceIdeal.Read
import proofs.«120431_j60971355734708_2_alg».proof.Proof.Gen.Pre_finite_inputs
import proofs.«120431_j60971355734708_2_alg».proof.Proof.TableRun
import proofs.«120431_j60971355734708_2_alg».proof.Proof.TableArrays
import proofs.«120431_j60971355734708_2_alg».proof.Proof.ReferenceTable
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame over its two regions. -/
theorem frame_kernel : Cert.frame_Kernel := fun m ρ _ => Cert.Kernel.Gen.frame m ρ

/-- So does its reading at the ideal values. -/
theorem frame_ideal : Cert.frame_KernelIdeal := fun m ρ _ => Cert.KernelIdeal.Gen.frame m ρ

/-- The reference is host operations only: its generated run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation, so there is nothing to preserve. -/
theorem preserves : Cert.preserves_Kernel_KernelIdeal := trivial

/-- At the ideal values both programs end with the pairwise label table of the arguments they were launched with,
    and the arguments agree. -/
theorem algebraic : Cert.algebraic_KernelIdeal_ReferenceIdeal := by
  intro m ρ m' ρ' _ hagree
  refine ⟨fun c => Cert.PairTable.table (Cert.KernelIdeal.HalvesArrays.words m c) (Cert.KernelIdeal.HalvesArrays.stacked m c)
      (Cert.KernelIdeal.HalvesArrays.bias1 m c) (Cert.KernelIdeal.TableArrays.weight2 m c)
      (Cert.KernelIdeal.TableArrays.bias2 m c), ?_, ?_⟩
  · exact (θ_run Cert.KernelIdeal.defs _ _).mono
      (fun r h c => ⟨(h c).1.trans (Cert.KernelIdeal.TableArrays.final_table m ρ c), (h c).2⟩)
      (Cert.KernelIdeal.TableRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v16_eq, Cert.PairTable.Reference.reference_is_table,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
